-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x500000 : Shape := ⟨2, ![2, 500000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : IVec S2x500000 32) (main_arg1 : FVec F S50000x128 .f32) (main_arg2 : FVec F S50000x128 .f32) (main_arg3 : FVec F S128x128 .f32) (main_arg4 : FVec F S128 .f32) (main_arg5 : FVec F S128x128 .f32) (main_arg6 : FVec F S128x128 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S2x500000 : Shape := ⟨2, ![2, 500000]⟩
abbrev S50000x128 : Shape := ⟨2, ![50000, 128]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩
abbrev S4000x128 : Shape := ⟨2, ![4000, 128]⟩

abbrev nBuf : Space → Nat
  | .hbm => 39
  | .vmem => 10
  | .smem => 0
  | _ => 0

abbrev bufTy : (tb : Table) → Fin (tcTables nBuf tb) → BufTy
  | .hbm, ⟨0, _⟩ => ⟨S2x500000, .i32⟩
  | .hbm, ⟨1, _⟩ => ⟨S50000x128, .f32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S50000x128, .bf16⟩
  | .hbm, ⟨12, _⟩ => ⟨S50000x128, .bf16⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000x128, .bf16⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x128, .bf16⟩
  | .hbm, ⟨31, _⟩ => ⟨S128x128, .f32⟩
  | .hbm, ⟨32, _⟩ => ⟨S128x128, .bf16⟩
  | .hbm, ⟨33, _⟩ => ⟨S128x128, .f32⟩
  | .hbm, ⟨34, _⟩ => ⟨S128x128, .bf16⟩
  | .hbm, ⟨35, _⟩ => ⟨S128x128, .f32⟩
  | .hbm, ⟨36, _⟩ => ⟨S128x128, .bf16⟩
  | .hbm, ⟨37, _⟩ => ⟨S1x128, .f32⟩
  | .hbm, ⟨38, _⟩ => ⟨S500000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | _, _ => ⟨S2x500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S50000x128_S500000x1_S500000x128_1_0_n_n_0_1_1128_wf : GatherDims.WF S50000x128 S500000x1 S500000x128 [1] [0] [] [0] [] 1 ![1, 128]
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .bf16 = 32 ∨ (Rect.block (s := S500000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .bf16 = 32 ∨ (Rect.block (s := S500000x128) S4000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S500000x128.size a
  hwx0_6 : ∀ i : grid0.Coords, EltTy.bits .f32 = 32 ∨ (Rect.block (s := S500000x128) S4000x128.size (cc0_transform_6 i) (hinb0_6 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v12) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x500000 : Shape := ⟨2, ![2, 500000]⟩
abbrev S50000x128 : Shape := ⟨2, ![50000, 128]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S2x500000, .i32⟩
  | .hbm, ⟨1, _⟩ => ⟨S50000x128, .f32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x128, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S500000x128, .f32⟩
  | .hbm, ⟨30, _⟩ => ⟨S500000x128, .f32⟩
  | .hbm, ⟨31, _⟩ => ⟨S500000x128, .f32⟩
  | .hbm, ⟨32, _⟩ => ⟨S500000x128, .f32⟩
  | .hbm, ⟨33, _⟩ => ⟨S_, .f32⟩
  | .hbm, ⟨34, _⟩ => ⟨S500000x128, .f32⟩
  | .hbm, ⟨35, _⟩ => ⟨S500000x128, .f32⟩
  | .hbm, ⟨36, _⟩ => ⟨S_, .f32⟩
  | .hbm, ⟨37, _⟩ => ⟨S500000x128, .f32⟩
  | .hbm, ⟨38, _⟩ => ⟨S500000x128, .f32⟩
  | .hbm, ⟨39, _⟩ => ⟨S500000x128, .f32⟩
  | .hbm, ⟨40, _⟩ => ⟨S500000x128, .f32⟩
  | .hbm, ⟨41, _⟩ => ⟨S500000x128, .f32⟩
  | .hbm, ⟨42, _⟩ => ⟨S_, .f32⟩
  | .hbm, ⟨43, _⟩ => ⟨S500000x128, .f32⟩
  | .hbm, ⟨44, _⟩ => ⟨S500000x128, .f32⟩
  | .hbm, ⟨45, _⟩ => ⟨S_, .f32⟩
  | .hbm, ⟨46, _⟩ => ⟨S500000x128, .f32⟩
  | .hbm, ⟨47, _⟩ => ⟨S500000x128, .f32⟩
  | .hbm, ⟨48, _⟩ => ⟨S500000x128, .f32⟩
  | .hbm, ⟨49, _⟩ => ⟨S1x128, .f32⟩
  | .hbm, ⟨50, _⟩ => ⟨S500000x128, .f32⟩
  | .hbm, ⟨51, _⟩ => ⟨S500000x128, .f32⟩
  | .hbm, ⟨52, _⟩ => ⟨S500000x128, .f32⟩
  | .hbm, ⟨53, _⟩ => ⟨S500000x128, .f32⟩
  | .hbm, ⟨54, _⟩ => ⟨S500000x128, .f32⟩
  | .hbm, ⟨55, _⟩ => ⟨S500000x128, .f32⟩
  | _, _ => ⟨S2x500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x128 : S_.BroadcastsInDim S500000x128 (![] : Fin 0 → Fin S500000x128.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  gather_S50000x128_S500000x1_S500000x128_1_0_n_n_0_1_1128_wf : GatherDims.WF S50000x128 S500000x1 S500000x128 [1] [0] [] [0] [] 1 ![1, 128]
  dot_S500000x128_S128x128_S500000x128_1_1_0_0_n_n_wf : DotDims.WF S500000x128 S128x128 S500000x128 [1] [1] [0] [0] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x128_S128x128_S500000x128_1_1_0_0_n_n : DotDims S500000x128 S128x128 S500000x128 where
  lhsContracting := [1]
  rhsContracting := [1]
  lhsNonContracting := [0]
  rhsNonContracting := [0]
  lhsBatch := []
  rhsBatch := []
  wf := dot_S500000x128_S128x128_S500000x128_1_1_0_0_n_n_wf

class Facts : Prop extends Facts₀ where

variable [Facts]
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«131515_j76665166233872_2_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.EdgeSpec.lean ====
/-
  The propagation rule, entry by entry.

  For every edge r and output feature j, with e1 and e2 the two gathered endpoint embeddings of the edges (one row of
  128 features per edge), W1, W2, Wc the three weight matrices indexed (output feature, input feature) and b the
  bias:

      out(r, j) = ( σ(Σ_k e1(r,k)·W1(j,k)) + σ(Σ_k e2(r,k)·W2(j,k)) ) · tanh( Σ_k (e1(r,k) + e2(r,k))·Wc(j,k) + b(j) )

  with σ the logistic function, all on the extended reals.
-/
import Idealize.ShloMosaic.PureOps.Ideal
import Idealize.ShloMosaic.Lib.ValueIdx

noncomputable section

open scoped BigOperators

namespace Cert.EdgeGate

open Idealize.ShloMosaic Idealize.ShloMosaic.ValueIdx

/-- The rule at edge `r` and output feature `j`. -/
def cell (e1 e2 : (⟨2, ![500000, 128]⟩ : Shape).Idx → EReal) (Wc : (⟨2, ![128, 128]⟩ : Shape).Idx → EReal)
    (b : (⟨1, ![128]⟩ : Shape).Idx → EReal) (W1 W2 : (⟨2, ![128, 128]⟩ : Shape).Idx → EReal)
    (r : Fin 500000) (j : Fin 128) : EReal :=
  (Ideal.logistic (∑ k : Fin 128, e1 (ix2 r k) * W1 (ix2 j k))
      + Ideal.logistic (∑ k : Fin 128, e2 (ix2 r k) * W2 (ix2 j k)))
    * Ideal.tanh ((∑ k : Fin 128, (e1 (ix2 r k) + e2 (ix2 r k)) * Wc (ix2 j k)) + b (ix1 j))

/-- The whole result array. -/
def out (e1 e2 : (⟨2, ![500000, 128]⟩ : Shape).Idx → EReal) (Wc : (⟨2, ![128, 128]⟩ : Shape).Idx → EReal)
    (b : (⟨1, ![128]⟩ : Shape).Idx → EReal) (W1 W2 : (⟨2, ![128, 128]⟩ : Shape).Idx → EReal) :
    (⟨2, ![500000, 128]⟩ : Shape).Idx → EReal :=
  fun i => cell e1 e2 Wc b W1 W2 (i 0) (i 1)

theorem out_apply (e1 e2 : (⟨2, ![500000, 128]⟩ : Shape).Idx → EReal) (Wc : (⟨2, ![128, 128]⟩ : Shape).Idx → EReal)
    (b : (⟨1, ![128]⟩ : Shape).Idx → EReal) (W1 W2 : (⟨2, ![128, 128]⟩ : Shape).Idx → EReal) (r : Fin 500000) (j : Fin 128) :
    out e1 e2 Wc b W1 W2 (ix2 r j) = cell e1 e2 Wc b W1 W2 r j := rfl

end Cert.EdgeGate

end
-- ==== Proof.BlockValue.lean ====
/-
  What the kernel body computes from its loaded blocks, entry by entry.

  From an edge block of the two gathered embeddings x0, x1 (4000 edges by 128 features), the three transposed weight
  matrices x2, x3, x4 (input feature by output feature) and the one-row bias x5, the stored value at row p and
  column q is

      ( σ(Σ_k x0(p,k)·x2(k,q)) + σ(Σ_k x1(p,k)·x3(k,q)) ) · tanh( Σ_k (x0(p,k) + x1(p,k))·x4(k,q) + x5(0,q) ):

  each matrix product into a zero accumulator is the textbook sum over the contracted axis, the casts that keep the
  shape are the identity, the bias row is read at its one row, and the remaining operations act entry by entry.
-/
import proofs.«131515_j76665166233872_2_alg».proof.Proof.Gen.KernelIdeal.Skeleton
import proofs.«131515_j76665166233872_2_alg».proof.Proof.LibAffineBlock
import proofs.«131515_j76665166233872_2_alg».proof.Proof.EdgeSpec
import Idealize.ShloMosaic.Lib.Pipeline.Value
import Idealize.ShloMosaic.Lib.ValueIdx

noncomputable section

open scoped BigOperators

namespace Cert.KernelIdeal.Block

open Cert.KernelIdeal Cert.KernelIdeal.Gen Idealize.ShloMosaic Idealize.ShloMosaic.ValueIdx

/-- The stored block at row `p`, column `q`. -/
theorem payload_apply (x0 x1 : FVec Ideal S4000x128 .bf16) (x2 x3 x4 : FVec Ideal S128x128 .bf16)
    (x5 : FVec Ideal S1x128 .f32) (p : Fin 4000) (q : Fin 128) :
    k0_pay1 (F := Ideal) x0 x1 x2 x3 x4 x5 (ix2 p q)
      = (Ideal.logistic (∑ k : Fin 128, x0 (ix2 p k) * x2 (ix2 k q))
          + Ideal.logistic (∑ k : Fin 128, x1 (ix2 p k) * x3 (ix2 k q)))
        * Ideal.tanh ((∑ k : Fin 128, (x0 (ix2 p k) + x1 (ix2 p k)) * x4 (ix2 k q)) + x5 (ix2 (0 : Fin 1) q)) := by
  unfold k0_pay1
  simp only [shapeCast_self]
  show (Ideal.logistic (matmul dot_S4000x128_S128x128_S4000x128_1_0_0_1_n_n none x0 x2 (constant (F := Ideal) S4000x128 .f32 0x00000000#32) (ix2 p q))
        + Ideal.logistic (matmul dot_S4000x128_S128x128_S4000x128_1_0_0_1_n_n none x1 x3 (constant (F := Ideal) S4000x128 .f32 0x00000000#32) (ix2 p q)))
      * Ideal.tanh (addf (matmul dot_S4000x128_S128x128_S4000x128_1_0_0_1_n_n none (addf x0 x1) x4 (constant (F := Ideal) S4000x128 .f32 0x00000000#32))
          (broadcastTo S4000x128 x5 broadcasts_S1x128_S4000x128) (ix2 p q)) = _
  rw [Cert.LibMatmulNN.matmul_zero_apply' dot_S4000x128_S128x128_S4000x128_1_0_0_1_n_n rfl rfl rfl rfl rfl rfl none x0 x2 p q,
    Cert.LibMatmulNN.matmul_zero_apply' dot_S4000x128_S128x128_S4000x128_1_0_0_1_n_n rfl rfl rfl rfl rfl rfl none x1 x3 p q,
    Cert.LibAffineBlock.affine_apply dot_S4000x128_S128x128_S4000x128_1_0_0_1_n_n rfl rfl rfl rfl rfl rfl none (addf x0 x1) x4 x5
      broadcasts_S1x128_S4000x128 p q]
  rfl

/-- When the loaded blocks are a row block of two edge arrays E1, E2 (block row p is array row R), the transposes of
    three weight matrices and the bias as one row, the stored block's entry (p, q) is the propagation rule at edge R
    and feature q. -/
theorem block_rule (E1 E2 : (⟨2, ![500000, 128]⟩ : Shape).Idx → EReal) (Wc : (⟨2, ![128, 128]⟩ : Shape).Idx → EReal)
    (b : (⟨1, ![128]⟩ : Shape).Idx → EReal) (W1 W2 : (⟨2, ![128, 128]⟩ : Shape).Idx → EReal)
    (x0 x1 : FVec Ideal S4000x128 .bf16) (x2 x3 x4 : FVec Ideal S128x128 .bf16) (x5 : FVec Ideal S1x128 .f32)
    (R : Fin 500000) (p : Fin 4000) (q : Fin 128)
    (h0 : ∀ k : Fin 128, x0 (ix2 p k) = E1 (ix2 R k)) (h1 : ∀ k : Fin 128, x1 (ix2 p k) = E2 (ix2 R k))
    (h2 : ∀ k : Fin 128, x2 (ix2 k q) = W1 (ix2 q k)) (h3 : ∀ k : Fin 128, x3 (ix2 k q) = W2 (ix2 q k))
    (h4 : ∀ k : Fin 128, x4 (ix2 k q) = Wc (ix2 q k)) (h5 : x5 (ix2 (0 : Fin 1) q) = b (ix1 q)) :
    k0_pay1 (F := Ideal) x0 x1 x2 x3 x4 x5 (ix2 p q) = Cert.EdgeGate.cell E1 E2 Wc b W1 W2 R q := by
  rw [payload_apply]
  unfold Cert.EdgeGate.cell
  simp only [h0, h1, h2, h3, h4, h5]

end Cert.KernelIdeal.Block

end
-- ==== Proof.HostPrefix.lean ====
/-
  What the kernel's region finds in its six input arrays.

  Before the one region the program prepares its operands on the host: each row of the sample array becomes a vector
  of node numbers, a negative number wrapped once by the table length 50000; the two embedding tables are gathered
  row by row at those numbers (the gather clamps a number into the table); each weight matrix is transposed; the bias
  vector becomes a one-row matrix. Changes of float format are the identity on the extended reals, so they leave no
  trace in the values read below:

    * the transposed weights at (k, j) are the weight matrix at (j, k);
    * the one-row bias at (0, j) is the bias at j;
    * the gathered embeddings are named (`rows1`, `rows2`) and not opened: the reference gathers the same rows.
-/
import proofs.«131515_j76665166233872_2_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx

/-- Row 0 of the sample array as a column of node numbers, a negative number wrapped by 50000. -/
def nodes1 (x0 : (⟨S2x500000, .i32⟩ : BufTy).Contents (Elt Ideal)) : (⟨S500000x1, .i32⟩ : BufTy).Contents (Elt Ideal) :=
  broadcastInDim S500000x1 ![0] bcast_S500000_S500000x1_0
    (select
      (cmpi .slt (shapeCast _ (extractStridedSlice S1x500000 ![0, 0] x0 slices_S2x500000_S1x500000_0_0) shapeCasts_S1x500000_S500000)
        (broadcastInDim S500000 ![] bcast_S_S500000 (constantI S_ 32 0#32)))
      (addi (shapeCast _ (extractStridedSlice S1x500000 ![0, 0] x0 slices_S2x500000_S1x500000_0_0) shapeCasts_S1x500000_S500000)
        (broadcastInDim S500000 ![] bcast_S_S500000 (constantI S_ 32 50000#32)))
      (shapeCast _ (extractStridedSlice S1x500000 ![0, 0] x0 slices_S2x500000_S1x500000_0_0) shapeCasts_S1x500000_S500000))

/-- Row 1 likewise. -/
def nodes2 (x0 : (⟨S2x500000, .i32⟩ : BufTy).Contents (Elt Ideal)) : (⟨S500000x1, .i32⟩ : BufTy).Contents (Elt Ideal) :=
  broadcastInDim S500000x1 ![0] bcast_S500000_S500000x1_0
    (select
      (cmpi .slt (shapeCast _ (extractStridedSlice S1x500000 ![1, 0] x0 slices_S2x500000_S1x500000_1_0) shapeCasts_S1x500000_S500000)
        (broadcastInDim S500000 ![] bcast_S_S500000 (constantI S_ 32 0#32)))
      (addi (shapeCast _ (extractStridedSlice S1x500000 ![1, 0] x0 slices_S2x500000_S1x500000_1_0) shapeCasts_S1x500000_S500000)
        (broadcastInDim S500000 ![] bcast_S_S500000 (constantI S_ 32 50000#32)))
      (shapeCast _ (extractStridedSlice S1x500000 ![1, 0] x0 slices_S2x500000_S1x500000_1_0) shapeCasts_S1x500000_S500000))

/-- The first table's rows gathered at the first node numbers. -/
def rows1 (x0 : (⟨S2x500000, .i32⟩ : BufTy).Contents (Elt Ideal)) (x1 : (⟨S50000x128, .f32⟩ : BufTy).Contents (Elt Ideal)) :
    (⟨S500000x128, .bf16⟩ : BufTy).Contents (Elt Ideal) :=
  Host.gather gather_S50000x128_S500000x1_S500000x128_1_0_n_n_0_1_1128 (truncf (F := Ideal) .bf16 x1 bitsLt_bf16_f32) (nodes1 x0)

/-- The second table's rows gathered at the second node numbers. -/
def rows2 (x0 : (⟨S2x500000, .i32⟩ : BufTy).Contents (Elt Ideal)) (x2 : (⟨S50000x128, .f32⟩ : BufTy).Contents (Elt Ideal)) :
    (⟨S500000x128, .bf16⟩ : BufTy).Contents (Elt Ideal) :=
  Host.gather gather_S50000x128_S500000x1_S500000x128_1_0_n_n_0_1_1128 (truncf (F := Ideal) .bf16 x2 bitsLt_bf16_f32) (nodes2 x0)

/-- A weight matrix transposed (and its format changed). -/
def flipped (x : (⟨S128x128, .f32⟩ : BufTy).Contents (Elt Ideal)) : (⟨S128x128, .bf16⟩ : BufTy).Contents (Elt Ideal) :=
  truncf (F := Ideal) .bf16 (transpose S128x128 [1, 0] x transposes_S128x128_S128x128_1_0) bitsLt_bf16_f32

/-- A transposed weight matrix at (k, j) is the matrix at (j, k). -/
theorem flipped_apply (x : (⟨S128x128, .f32⟩ : BufTy).Contents (Elt Ideal)) (k j : Fin 128) :
    (flipped x : S128x128.Idx → EReal) (ix2 k j) = (x : S128x128.Idx → EReal) (ix2 j k) :=
  transpose_ix2_apply (x : S128x128.Idx → EReal) transposes_S128x128_S128x128_1_0 k j

/-- The bias vector as a one-row matrix. -/
def biasRow (x : (⟨S128, .f32⟩ : BufTy).Contents (Elt Ideal)) : (⟨S1x128, .f32⟩ : BufTy).Contents (Elt Ideal) :=
  shapeCast S1x128 x shapeCasts_S128_S1x128

/-- The one-row bias at (0, j) is the bias at j. -/
theorem biasRow_apply (x : (⟨S128, .f32⟩ : BufTy).Contents (Elt Ideal)) (j : Fin 128) :
    (biasRow x : S1x128.Idx → EReal) (ix2 (0 : Fin 1) j) = (x : S128.Idx → EReal) (ix1 j) :=
  shapeCast_a_1a_apply (x : S128.Idx → EReal) shapeCasts_S128_S1x128 0 j

variable (m : (ℓ : Loc nD τ sig) → Buf (Elt Ideal) ℓ)

/-- The first operand array holds the first gathered rows. -/
theorem found_rows1 (c : Dev nD) :
    V m c main_v12 = rows1 (m ((c : Thread nD τ).loc main_arg0)) (m ((c : Thread nD τ).loc main_arg1)) := by
  dsimp only [V, hostOps0]
  after_results_simp
  rfl

/-- The second operand array holds the second gathered rows. -/
theorem found_rows2 (c : Dev nD) :
    V m c main_v19 = rows2 (m ((c : Thread nD τ).loc main_arg0)) (m ((c : Thread nD τ).loc main_arg2)) := by
  dsimp only [V, hostOps0]
  after_results_simp
  rfl

/-- The third operand array is the first edge-weight matrix transposed. -/
theorem found_w1 (c : Dev nD) : V m c main_v23 = flipped (m ((c : Thread nD τ).loc main_arg5)) := by
  dsimp only [V, hostOps0]
  after_results_simp
  rfl

/-- The fourth operand array is the second edge-weight matrix transposed. -/
theorem found_w2 (c : Dev nD) : V m c main_v25 = flipped (m ((c : Thread nD τ).loc main_arg6)) := by
  dsimp only [V, hostOps0]
  after_results_simp
  rfl

/-- The fifth operand array is the combining weight matrix transposed. -/
theorem found_wc (c : Dev nD) : V m c main_v21 = flipped (m ((c : Thread nD τ).loc main_arg3)) := by
  dsimp only [V, hostOps0]
  after_results_simp
  rfl

/-- The sixth operand array is the bias as a one-row matrix. -/
theorem found_bias (c : Dev nD) : V m c main_v26 = biasRow (m ((c : Thread nD τ).loc main_arg4)) := by
  dsimp only [V, hostOps0]
  after_results_simp
  rfl

end Cert.KernelIdeal.Prefix

end
-- ==== Proof.KernelValue.lean ====
/-
  The kernel's result array, as one function of the argument arrays.

  The grid has 125 points. At point t the two edge windows and the output window sit at block row t (edges
  4000·t … 4000·t + 3999, all 128 features), and the three weight windows and the bias window at their one block.
  So the block the body stores at point t is, entry by entry, the propagation rule at edge 4000·t + p and feature q;
  the 125 blocks tile the 500000 edges, and the array after the run is the rule everywhere.
-/
import proofs.«131515_j76665166233872_2_alg».proof.Proof.Gen.KernelIdeal.Value
import proofs.«131515_j76665166233872_2_alg».proof.Proof.BlockValue
import proofs.«131515_j76665166233872_2_alg».proof.Proof.HostPrefix
import proofs.«131515_j76665166233872_2_alg».proof.Proof.EdgeSpec
import Idealize.ShloMosaic.Lib.Pipeline.Value

noncomputable section

namespace Cert.KernelIdeal.Whole

open Cert.KernelIdeal Cert.KernelIdeal.Gen Cert.KernelIdeal.Value Cert.KernelIdeal.Prefix
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point `t`: the edge windows and the output at block row `t`, the rest at their
    one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The first edge window's block at point `t`, entry (p, k), is the first operand array at row 4000·t + p. -/
theorem edges1_block (c : Dev nD) (t : Fin cfg0.N) (p : Fin 4000) (k : Fin 128) (i : S500000x128.Idx)
    (h0 : (i 0).val = t.val * 4000 + p.val) (h1 : (i 1).val = k.val) :
    (iblk m c 0 t : FVec Ideal S4000x128 .bf16) (ix2 p k) = (V m c main_v12 : S500000x128.Idx → EReal) i := by
  obtain ⟨e0, e1, -⟩ := block_index t
  unfold iblk
  rw [View.read_apply]
  show (V m c main_v12 : S500000x128.Idx → EReal) _ = _
  refine congrArg (V m c main_v12 : S500000x128.Idx → EReal) ?_
  funext a; apply Fin.ext
  match a with
  | ⟨0, _⟩ => show win0_0.index t (0 : Fin 2) * 4000 + 1 * p.val = (i 0).val; omega
  | ⟨1, _⟩ => show win0_0.index t (1 : Fin 2) * 128 + 1 * k.val = (i 1).val; omega

/-- The second edge window's block likewise. -/
theorem edges2_block (c : Dev nD) (t : Fin cfg0.N) (p : Fin 4000) (k : Fin 128) (i : S500000x128.Idx)
    (h0 : (i 0).val = t.val * 4000 + p.val) (h1 : (i 1).val = k.val) :
    (iblk m c 1 t : FVec Ideal S4000x128 .bf16) (ix2 p k) = (V m c main_v19 : S500000x128.Idx → EReal) i := by
  obtain ⟨-, -, e0, e1, -⟩ := block_index t
  unfold iblk
  rw [View.read_apply]
  show (V m c main_v19 : S500000x128.Idx → EReal) _ = _
  refine congrArg (V m c main_v19 : S500000x128.Idx → EReal) ?_
  funext a; apply Fin.ext
  match a with
  | ⟨0, _⟩ => show win0_1.index t (0 : Fin 2) * 4000 + 1 * p.val = (i 0).val; omega
  | ⟨1, _⟩ => show win0_1.index t (1 : Fin 2) * 128 + 1 * k.val = (i 1).val; omega

/-- A weight window's one block is its whole array. -/
theorem weights1_block (c : Dev nD) (t : Fin cfg0.N) (k j : Fin 128) :
    (iblk m c 2 t : FVec Ideal S128x128 .bf16) (ix2 k j) = (V m c main_v23 : S128x128.Idx → EReal) (ix2 k j) := by
  obtain ⟨-, -, -, -, e0, e1, -⟩ := block_index t
  unfold iblk
  rw [View.read_apply]
  show (V m c main_v23 : S128x128.Idx → EReal) _ = _
  refine congrArg (V m c main_v23 : S128x128.Idx → EReal) ?_
  funext a; apply Fin.ext
  match a with
  | ⟨0, _⟩ => show win0_2.index t (0 : Fin 2) * 128 + 1 * k.val = k.val; omega
  | ⟨1, _⟩ => show win0_2.index t (1 : Fin 2) * 128 + 1 * j.val = j.val; omega

theorem weights2_block (c : Dev nD) (t : Fin cfg0.N) (k j : Fin 128) :
    (iblk m c 3 t : FVec Ideal S128x128 .bf16) (ix2 k j) = (V m c main_v25 : S128x128.Idx → EReal) (ix2 k j) := by
  obtain ⟨-, -, -, -, -, -, e0, e1, -⟩ := block_index t
  unfold iblk
  rw [View.read_apply]
  show (V m c main_v25 : S128x128.Idx → EReal) _ = _
  refine congrArg (V m c main_v25 : S128x128.Idx → EReal) ?_
  funext a; apply Fin.ext
  match a with
  | ⟨0, _⟩ => show win0_3.index t (0 : Fin 2) * 128 + 1 * k.val = k.val; omega
  | ⟨1, _⟩ => show win0_3.index t (1 : Fin 2) * 128 + 1 * j.val = j.val; omega

theorem weightsC_block (c : Dev nD) (t : Fin cfg0.N) (k j : Fin 128) :
    (iblk m c 4 t : FVec Ideal S128x128 .bf16) (ix2 k j) = (V m c main_v21 : S128x128.Idx → EReal) (ix2 k j) := by
  obtain ⟨-, -, -, -, -, -, -, -, e0, e1, -⟩ := block_index t
  unfold iblk
  rw [View.read_apply]
  show (V m c main_v21 : S128x128.Idx → EReal) _ = _
  refine congrArg (V m c main_v21 : S128x128.Idx → EReal) ?_
  funext a; apply Fin.ext
  match a with
  | ⟨0, _⟩ => show win0_4.index t (0 : Fin 2) * 128 + 1 * k.val = k.val; omega
  | ⟨1, _⟩ => show win0_4.index t (1 : Fin 2) * 128 + 1 * j.val = j.val; omega

/-- The bias window's one block is its whole one-row array. -/
theorem bias_block (c : Dev nD) (t : Fin cfg0.N) (j : Fin 128) :
    (iblk m c 5 t : FVec Ideal S1x128 .f32) (ix2 (0 : Fin 1) j) = (V m c main_v26 : S1x128.Idx → EReal) (ix2 (0 : Fin 1) j) := by
  obtain ⟨-, -, -, -, -, -, -, -, -, -, e0, e1, -⟩ := block_index t
  unfold iblk
  rw [View.read_apply]
  show (V m c main_v26 : S1x128.Idx → EReal) _ = _
  refine congrArg (V m c main_v26 : S1x128.Idx → EReal) ?_
  funext a; apply Fin.ext
  match a with
  | ⟨0, _⟩ => show win0_5.index t (0 : Fin 2) * 1 + 1 * 0 = 0; omega
  | ⟨1, _⟩ => show win0_5.index t (1 : Fin 2) * 128 + 1 * j.val = j.val; omega

/-- The propagation rule of the program's argument arrays: the two tables gathered at the wrapped node numbers, the
    combining weights, the bias and the two edge weights. -/
def result (c : Dev nD) : Buf (Elt Ideal) ((c : Thread nD τ).loc main_v27) :=
  Cert.EdgeGate.out
    (rows1 (m ((c : Thread nD τ).loc main_arg0)) (m ((c : Thread nD τ).loc main_arg1)))
    (rows2 (m ((c : Thread nD τ).loc main_arg0)) (m ((c : Thread nD τ).loc main_arg2)))
    (m ((c : Thread nD τ).loc main_arg3)) (m ((c : Thread nD τ).loc main_arg4))
    (m ((c : Thread nD τ).loc main_arg5)) (m ((c : Thread nD τ).loc main_arg6))

/-- What point `t` writes back is block `t` of the rule. -/
theorem flushed_eq (c : Dev nD) (t : Fin cfg0.N) :
    (dats m 0 c).flushed 6 t = ((cfg0.win 6).blk t).view.read (Elt Ideal) (result m c) := by
  rw [flushed6]
  unfold out0_6
  rw [View.canon_unit_zero zero_offsets]
  simp only [View.ld_unit_zero (S := S4000x128) zero_offsets, View.ld_unit_zero (S := S128x128) zero_offsets,
    View.ld_unit_zero (S := S1x128) zero_offsets]
  have ht : t.val < 125 := lt_of_lt_of_eq t.isLt N_0
  obtain ⟨-, -, -, -, -, -, -, -, -, -, -, -, e0, e1⟩ := block_index t
  funext y
  obtain ⟨p, q, rfl⟩ : ∃ (p : Fin 4000) (q : Fin 128), y = ix2 p q := ⟨y 0, y 1, eq_ix2 (n0 := 4000) (n1 := 128) y⟩
  show k0_pay1 (F := Ideal) (iblk m c 0 t) (iblk m c 1 t) (iblk m c 2 t) (iblk m c 3 t) (iblk m c 4 t) (iblk m c 5 t) (ix2 p q)
      = result m c (((cfg0.win 6).blk t).view.emb (ix2 p q))
  have hemb : ((cfg0.win 6).blk t).view.emb (ix2 p q) = ix2 (⟨t.val * 4000 + p.val, by omega⟩ : Fin 500000) q := by
    funext a; apply Fin.ext
    match a with
    | ⟨0, _⟩ => show win0_6.index t (0 : Fin 2) * 4000 + 1 * p.val = t.val * 4000 + p.val; omega
    | ⟨1, _⟩ => show win0_6.index t (1 : Fin 2) * 128 + 1 * q.val = q.val; omega
  rw [hemb]
  unfold result
  rw [Cert.EdgeGate.out_apply]
  exact Cert.KernelIdeal.Block.block_rule _ _ _ _ _ _
    (iblk m c 0 t) (iblk m c 1 t) (iblk m c 2 t) (iblk m c 3 t) (iblk m c 4 t) (iblk m c 5 t) _ p q
    (fun k => (edges1_block m c t p k (ix2 ⟨t.val * 4000 + p.val, by omega⟩ k) rfl rfl).trans
      (congrFun (found_rows1 m c) _))
    (fun k => (edges2_block m c t p k (ix2 ⟨t.val * 4000 + p.val, by omega⟩ k) rfl rfl).trans
      (congrFun (found_rows2 m c) _))
    (fun k => (weights1_block m c t k q).trans ((congrFun (found_w1 m c) _).trans (flipped_apply _ k q)))
    (fun k => (weights2_block m c t k q).trans ((congrFun (found_w2 m c) _).trans (flipped_apply _ k q)))
    (fun k => (weightsC_block m c t k q).trans ((congrFun (found_wc m c) _).trans (flipped_apply _ k q)))
    ((bias_block m c t q).trans ((congrFun (found_bias m c) _).trans (biasRow_apply _ q)))

/-- Every edge row lies in some point's block: row r in block r / 4000. -/
theorem covered (i : S500000x128.Idx) :
    ∃ t : Fin cfg0.N, (cfg0.win 6).flush t = true ∧ i ∈ ((cfg0.win 6).blk t).view.set := by
  have hi0 : (i 0).val < 500000 := (i 0).isLt
  have hi1 : (i 1).val < 128 := (i 1).isLt
  obtain ⟨t, htv⟩ : ∃ t : Fin cfg0.N, t.val = (i 0).val / 4000 :=
    ⟨⟨(i 0).val / 4000, lt_of_lt_of_eq (by omega : (i 0).val / 4000 < 125) N_0.symm⟩, rfl⟩
  obtain ⟨-, -, -, -, -, -, -, -, -, -, -, -, e0, e1⟩ := block_index t
  refine ⟨t, flush0_6 t, ?_⟩
  show i ∈ ((View.whole main_v27).slice (win0_6.rect t)).set
  rw [View.set_slice_whole, Rect.mem_set_unit]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-- The result array after the run is the rule. -/
theorem final (c : Dev nD) : (dats m 0 c).arrAt 6 cfg0.N = result m c :=
  (dats m 0 c).arrAt_eq_of_cover 6 (result m c) (fun t _ => flushed_eq m c t) (covered)

/-- The run, read: the result array at the rule, the arguments unchanged. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Whole

end
-- ==== Proof.GateLaw.lean ====
/-
  The gate's algebra on the extended reals.

  The logistic function 1 / (1 + e^(-x)) takes values in [0, 1] at every extended real: 0 at -∞, 1 at +∞ and the
  inverse of a positive real in between. A sum of two nonnegative extended reals multiplies out term by term
  against ANY third extended real, so

      (σ a + σ b) · c = σ a · c + σ b · c

  holds with no finiteness assumption on a, b or c. That is the one law between a gate formed once from the sum of
  two logistic weights and the same gate formed as the sum of two separately weighted copies.
-/
import Idealize.ShloMosaic.PureOps.Ideal

noncomputable section

namespace Cert.EdgeGate

open Idealize.ShloMosaic

/-- The single-precision word of 1.0 denotes the extended real 1. -/
theorem one_word : Ideal.ofBits .f32 0x3F800000#32 = 1 := by
  simp [Ideal.ofBits, Ideal.ieee, -EReal.coe_mul]; norm_num

/-- The logistic function is nonnegative at every extended real. -/
theorem logistic_nonneg (x : EReal) : 0 ≤ Ideal.logistic x := by
  induction x using EReal.rec with
  | bot => rw [Ideal.logistic_bot]
  | coe r =>
    rw [Ideal.logistic_coe]
    have h : (0 : ℝ) ≤ (1 + Real.exp (-r))⁻¹ := inv_nonneg.mpr (by positivity)
    exact_mod_cast h
  | top => rw [Ideal.logistic_top]; exact zero_le_one

/-- A sum of two logistic weights multiplies out term by term against any extended real. -/
theorem gate_split (a b c : EReal) :
    (Ideal.logistic a + Ideal.logistic b) * c = Ideal.logistic a * c + Ideal.logistic b * c :=
  EReal.right_distrib_of_nonneg (logistic_nonneg a) (logistic_nonneg b)

/-- The logistic function spelt out as a quotient, with its two ones written as the word of 1.0. -/
theorem quotient_form (x : EReal) :
    Ideal.div (Ideal.ofBits .f32 0x3F800000#32) (Ideal.ofBits .f32 0x3F800000#32 + Ideal.exp (-x)) = Ideal.logistic x := by
  rw [one_word]; rfl

end Cert.EdgeGate

end
-- ==== Proof.RefValue.lean ====
/-
  The reference computes the propagation rule.

  Read one operation at a time, the reference's result at edge r and feature j is

      σ(Σ_k e1(r,k)·W1(j,k)) · T + σ(Σ_k e2(r,k)·W2(j,k)) · T,   T = tanh( Σ_k (e1(r,k) + e2(r,k))·Wc(j,k) + b(j) ),

  with each σ spelt as the quotient 1 / (1 + e^(-x)) and e1, e2 the two row gathers of the embedding tables. Two
  nonnegative weights multiply out term by term against T, so this is the rule with the gate formed once.
-/
import proofs.«131515_j76665166233872_2_alg».proof.Proof.Gen.ReferenceIdeal.Read
import proofs.«131515_j76665166233872_2_alg».proof.Proof.EdgeSpec
import proofs.«131515_j76665166233872_2_alg».proof.Proof.GateLaw

noncomputable section

open scoped BigOperators

namespace Cert.ReferenceIdeal.RefValue

open Cert.ReferenceIdeal Cert.ReferenceIdeal.Read Idealize.ShloMosaic Idealize.ShloMosaic.ValueIdx

/-- The left operand of a product at output (r, j), contraction position k, is read at (r, k). -/
theorem lrow (r : Fin 500000) (j k : Fin 128) :
    lidx_main_v19 (ix2 r j) k = ix2 r k ∧ lidx_main_v26 (ix2 r j) k = ix2 r k ∧ lidx_main_v33 (ix2 r j) k = ix2 r k :=
  ⟨funext fun a => Fin.ext (by match a with | ⟨0, _⟩ => rfl | ⟨1, _⟩ => rfl),
   funext fun a => Fin.ext (by match a with | ⟨0, _⟩ => rfl | ⟨1, _⟩ => rfl),
   funext fun a => Fin.ext (by match a with | ⟨0, _⟩ => rfl | ⟨1, _⟩ => rfl)⟩

/-- The right operand there is read at (j, k). -/
theorem rrow (r : Fin 500000) (j k : Fin 128) :
    ridx_main_v19 (ix2 r j) k = ix2 j k ∧ ridx_main_v26 (ix2 r j) k = ix2 j k ∧ ridx_main_v33 (ix2 r j) k = ix2 j k :=
  ⟨funext fun a => Fin.ext (by match a with | ⟨0, _⟩ => rfl | ⟨1, _⟩ => rfl),
   funext fun a => Fin.ext (by match a with | ⟨0, _⟩ => rfl | ⟨1, _⟩ => rfl),
   funext fun a => Fin.ext (by match a with | ⟨0, _⟩ => rfl | ⟨1, _⟩ => rfl)⟩

/-- The bias broadcast over the edges is read, at (r, j), at j. -/
theorem bias_at (r : Fin 500000) (j : Fin 128) : idx_main_v34 (idx_main_v35 (ix2 r j)) = ix1 j :=
  funext fun a => Fin.ext (by match a with | ⟨0, _⟩ => rfl)

/-- The reference's result array is the rule of its two gathers and the four parameter arrays. -/
theorem ref_is_rule (x0 : (⟨S2x500000, .i32⟩ : BufTy).Contents (Elt Ideal))
    (x1 x2 : (⟨S50000x128, .f32⟩ : BufTy).Contents (Elt Ideal)) (x3 : (⟨S128x128, .f32⟩ : BufTy).Contents (Elt Ideal))
    (x4 : (⟨S128, .f32⟩ : BufTy).Contents (Elt Ideal)) (x5 x6 : (⟨S128x128, .f32⟩ : BufTy).Contents (Elt Ideal)) :
    val_main_v40 (F := Ideal) x0 x1 x2 x3 x4 x5 x6
      = Cert.EdgeGate.out (val_main_v10 (F := Ideal) x0 x1) (val_main_v17 (F := Ideal) x0 x2) x3 x4 x5 x6 := by
  funext i
  obtain ⟨r, j, rfl⟩ : ∃ (r : Fin 500000) (j : Fin 128), i = ix2 r j := ⟨i 0, i 1, eq_ix2 i⟩
  rw [Cert.EdgeGate.out_apply]
  unfold Cert.EdgeGate.cell
  rw [Cert.EdgeGate.gate_split]
  simp only [val_main_v40_apply, val_main_v38_apply, val_main_v39_apply, val_main_v25_apply, val_main_v32_apply,
    val_main_v37_apply, val_main_v36_apply, val_main_v35_apply, val_main_v34_apply, val_main_v33_apply,
    val_main_v18_apply, val_main_v31_apply, val_main_v30_apply, val_main_v29_apply, val_main_v28_apply,
    val_main_v27_apply, val_main_v26_apply, val_main_v24_apply, val_main_v23_apply, val_main_v22_apply,
    val_main_v21_apply, val_main_v20_apply, val_main_v19_apply, val_main_cst_apply, val_main_cst_3_apply,
    val_main_cst_4_apply, val_main_cst_5_apply,
    (lrow r j _).1, (lrow r j _).2.1, (lrow r j _).2.2, (rrow r j _).1, (rrow r j _).2.1, (rrow r j _).2.2, bias_at,
    Ideal.addf_def, Ideal.mulf_def, Ideal.hostDivf_def, Ideal.hostUnary_exp_def, Ideal.hostUnary_tanh_def,
    Ideal.hostNegf_def, Ideal.negf_def, Ideal.ofBits_def, Cert.EdgeGate.quotient_form]

end Cert.ReferenceIdeal.RefValue

end
-- ==== Proof.SameRows.lean ====
/-
  Both programs gather the same rows.

  The kernel's program and the reference prepare the row numbers by the same chain (a row of the sample array, a
  negative number wrapped by the table length) and gather the same table at them; the kernel's program changes the
  table's float format first, which is the identity on the extended reals. So the two gathered arrays are one term.
-/
import proofs.«131515_j76665166233872_2_alg».proof.Proof.HostPrefix
import proofs.«131515_j76665166233872_2_alg».proof.Proof.Gen.ReferenceIdeal.Read

noncomputable section

namespace Cert.Proof.SameRows

open Idealize.ShloMosaic

/-- The first gathered array. -/
theorem rows1_agree (x0 : (⟨Cert.ReferenceIdeal.S2x500000, .i32⟩ : BufTy).Contents (Elt Ideal))
    (x1 : (⟨Cert.ReferenceIdeal.S50000x128, .f32⟩ : BufTy).Contents (Elt Ideal)) :
    (Cert.ReferenceIdeal.Read.val_main_v10 (F := Ideal) x0 x1 : (⟨2, ![500000, 128]⟩ : Shape).Idx → EReal)
      = Cert.KernelIdeal.Prefix.rows1 x0 x1 := rfl

/-- The second gathered array. -/
theorem rows2_agree (x0 : (⟨Cert.ReferenceIdeal.S2x500000, .i32⟩ : BufTy).Contents (Elt Ideal))
    (x2 : (⟨Cert.ReferenceIdeal.S50000x128, .f32⟩ : BufTy).Contents (Elt Ideal)) :
    (Cert.ReferenceIdeal.Read.val_main_v17 (F := Ideal) x0 x2 : (⟨2, ![500000, 128]⟩ : Shape).Idx → EReal)
      = Cert.KernelIdeal.Prefix.rows2 x0 x2 := rfl

end Cert.Proof.SameRows

end
-- ==== Proof.lean ====
/-
  An edge-wise propagation rule of a graph network, computed by a tiled kernel, against its plain reference.

  For each of 500000 edges the two endpoint embeddings e1, e2 (rows of two 50000×128 tables, chosen by the sample
  array) give the 128 outputs

      out(r, j) = ( σ(Σ_k e1(r,k)·W1(j,k)) + σ(Σ_k e2(r,k)·W2(j,k)) ) · tanh( Σ_k (e1(r,k) + e2(r,k))·Wc(j,k) + b(j) ).

  The kernel's program gathers the rows on the host, transposes the three weight matrices, and computes the rule
  over blocks of 4000 edges with the gate formed once, (σ₁ + σ₂)·T. The reference computes σ₁·T + σ₂·T. On the
  extended reals a logistic weight is never negative, so the sum of two of them multiplies out against any T
  (Proof/GateLaw.lean): no finiteness of the inputs is needed, and the precondition is not opened. The rest is
  reading: the matrix products as sums (Proof/BlockValue.lean), the operands the region finds (Proof/HostPrefix.lean),
  the 125 stored blocks as one array (Proof/KernelValue.lean), the reference operation by operation
  (Proof/RefValue.lean), and the two programs' gathers as one term (Proof/SameRows.lean).

  The three frames are the generated runs; the kernel's idealization rewrote nothing, so that claim is trivial.
-/
import proofs.«131515_j76665166233872_2_alg».proof.Defs
import proofs.«131515_j76665166233872_2_alg».proof.Proof.Gen.Kernel
import proofs.«131515_j76665166233872_2_alg».proof.Proof.Gen.Kernel.Skeleton
import proofs.«131515_j76665166233872_2_alg».proof.Proof.Gen.Kernel.Launch
import proofs.«131515_j76665166233872_2_alg».proof.Proof.Gen.Kernel.Points
import proofs.«131515_j76665166233872_2_alg».proof.Proof.Gen.Kernel.Frame
import proofs.«131515_j76665166233872_2_alg».proof.Proof.Gen.KernelIdeal
import proofs.«131515_j76665166233872_2_alg».proof.Proof.Gen.KernelIdeal.Skeleton
import proofs.«131515_j76665166233872_2_alg».proof.Proof.Gen.KernelIdeal.Launch
import proofs.«131515_j76665166233872_2_alg».proof.Proof.Gen.KernelIdeal.Points
import proofs.«131515_j76665166233872_2_alg».proof.Proof.Gen.KernelIdeal.Frame
import proofs.«131515_j76665166233872_2_alg».proof.Proof.Gen.ReferenceIdeal
import proofs.«131515_j76665166233872_2_alg».proof.Proof.Gen.Pre_finite_inputs
import proofs.«131515_j76665166233872_2_alg».proof.Proof.Gen.KernelIdeal.Value
import proofs.«131515_j76665166233872_2_alg».proof.Proof.Gen.ReferenceIdeal.Run
import proofs.«131515_j76665166233872_2_alg».proof.Proof.Gen.ReferenceIdeal.Read
import proofs.«131515_j76665166233872_2_alg».proof.Proof.KernelValue
import proofs.«131515_j76665166233872_2_alg».proof.Proof.RefValue
import proofs.«131515_j76665166233872_2_alg».proof.Proof.SameRows
import Idealize.ShloMosaic.Adequacy
import Idealize.ShloMosaic.Init

noncomputable section

namespace Cert.Proof

open Idealize.ShloMosaic Idealize.ShloMosaic.TcCoe Idealize.SL.Sem

/-- The kernel's program runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the propagation rule of those arguments in
    their result arrays: the kernel's by its blocks, the reference's operation by operation with the gate multiplied
    out, their gathered rows being the same term. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2.1, (hagree c).2.2.2.1,
    (hagree c).2.2.2.2.1, (hagree c).2.2.2.2.2.1, (hagree c).2.2.2.2.2.2]
  refine (Cert.ReferenceIdeal.RefValue.ref_is_rule _ _ _ _ _ _ _).trans ?_
  rw [Cert.Proof.SameRows.rows1_agree, Cert.Proof.SameRows.rows2_agree]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
